-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S500000x128 : Shape := ⟨2, ![500000, 128]⟩
abbrev S384x256 : Shape := ⟨2, ![384, 256]⟩
abbrev S256 : Shape := ⟨1, ![256]⟩
abbrev S256x128 : Shape := ⟨2, ![256, 128]⟩
abbrev S128 : Shape := ⟨1, ![128]⟩
abbrev S500000x2 : Shape := ⟨2, ![500000, 2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S256x128 .f32) (main_arg5 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S500000x128 .f32) (main_arg2 : FVec F S384x256 .f32) (main_arg3 : FVec F S256 .f32) (main_arg4 : FVec F S256x128 .f32) (main_arg5 : FVec F S128 .f32) (main_arg6 : IVec S500000x2 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S384x256 .f32 := Host.absf main_arg2
  let main_cst_2 : FVec F S_ .f32 := constant S_ .f32 0x7F800000#32
  let main_v10 : FVec F S384x256 .f32 := broadcastInDim S384x256 ![] bcast_S_S384x256 main_cst_2
  let main_v11 : IVec S384x256 1 := cmpf .olt main_v9 main_v10
  let main_c_3 : IVec S_ 1 := constantI S_ 1 1#1
  let main_v12 : IVec S_ 1 := (fun x v => Host.reduce IntOp.andi x v reducesTo_S384x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S50000x128 : Shape := ⟨2, ![50000, 128]⟩
abbrev S500000x128 : Shape := ⟨2, ![500000, 128]⟩
abbrev S384x256 : Shape := ⟨2, ![384, 256]⟩
abbrev S256 : Shape := ⟨1, ![256]⟩
abbrev S256x128 : Shape := ⟨2, ![256, 128]⟩
abbrev S128 : Shape := ⟨1, ![128]⟩
abbrev S500000x2 : Shape := ⟨2, ![500000, 2]⟩
abbrev S500000x1 : Shape := ⟨2, ![500000, 1]⟩
abbrev S500000 : Shape := ⟨1, ![500000]⟩
abbrev S_ : Shape := ⟨0, ![]⟩
abbrev S128x256 : Shape := ⟨2, ![128, 256]⟩
abbrev S1x256 : Shape := ⟨2, ![1, 256]⟩
abbrev S1x128 : Shape := ⟨2, ![1, 128]⟩
abbrev S5000x128 : Shape := ⟨2, ![5000, 128]⟩
abbrev S5000x256 : Shape := ⟨2, ![5000, 256]⟩

abbrev nBuf : Space → Nat
  | .hbm => 40
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S500000x128, .f32⟩
  | .hbm, ⟨2, _⟩ => ⟨S384x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S500000x2, .i32⟩
  | .hbm, ⟨7, _⟩ => ⟨S50000x128, .bf16⟩
  | .hbm, ⟨8, _⟩ => ⟨S500000x1, .i32⟩
  | .hbm, ⟨9, _⟩ => ⟨S500000, .i32⟩
  | .hbm, ⟨10, _⟩ => ⟨S_, .i32⟩
  | .hbm, ⟨11, _⟩ => ⟨S500000, .i32⟩
  | .hbm, ⟨12, _⟩ => ⟨S500000, .i1⟩
  | .hbm, ⟨13, _⟩ => ⟨S_, .i32⟩
  | .hbm, ⟨14, _⟩ => ⟨S500000, .i32⟩
  | .hbm, ⟨15, _⟩ => ⟨S500000, .i32⟩
  | .hbm, ⟨16, _⟩ => ⟨S500000, .i32⟩
  | .hbm, ⟨17, _⟩ => ⟨S500000x1, .i32⟩
  | .hbm, ⟨18, _⟩ => ⟨S500000x128, .bf16⟩
  | .hbm, ⟨19, _⟩ => ⟨S500000x1, .i32⟩
  | .hbm, ⟨20, _⟩ => ⟨S500000, .i32⟩
  | .hbm, ⟨21, _⟩ => ⟨S_, .i32⟩
  | .hbm, ⟨22, _⟩ => ⟨S500000, .i32⟩
  | .hbm, ⟨23, _⟩ => ⟨S500000, .i1⟩
  | .hbm, ⟨24, _⟩ => ⟨S_, .i32⟩
  | .hbm, ⟨25, _⟩ => ⟨S500000, .i32⟩
  | .hbm, ⟨26, _⟩ => ⟨S500000, .i32⟩
  | .hbm, ⟨27, _⟩ => ⟨S500000, .i32⟩
  | .hbm, ⟨28, _⟩ => ⟨S500000x1, .i32⟩
  | .hbm, ⟨29, _⟩ => ⟨S500000x128, .bf16⟩
  | .hbm, ⟨30, _⟩ => ⟨S128x256, .f32⟩
  | .hbm, ⟨31, _⟩ => ⟨S128x256, .bf16⟩
  | .hbm, ⟨32, _⟩ => ⟨S128x256, .f32⟩
  | .hbm, ⟨33, _⟩ => ⟨S128x256, .bf16⟩
  | .hbm, ⟨34, _⟩ => ⟨S128x256, .f32⟩
  | .hbm, ⟨35, _⟩ => ⟨S128x256, .bf16⟩
  | .hbm, ⟨36, _⟩ => ⟨S256x128, .bf16⟩
  | .hbm, ⟨37, _⟩ => ⟨S1x256, .f32⟩
  | .hbm, ⟨38, _⟩ => ⟨S1x128, .f32⟩
  | .hbm, ⟨39, _⟩ => ⟨S500000x128, .f32⟩
  | .local _ .vmem, ⟨0, _⟩ => ⟨S5000x128, .bf16⟩
  | .local _ .vmem, ⟨1, _⟩ => ⟨S5000x128, .bf16⟩
  | .local _ .vmem, ⟨2, _⟩ => ⟨S5000x128, .bf16⟩
  | .local _ .vmem, ⟨3, _⟩ => ⟨S5000x128, .bf16⟩
  | .local _ .vmem, ⟨4, _⟩ => ⟨S5000x128, .f32⟩
  | .local _ .vmem, ⟨5, _⟩ => ⟨S5000x128, .f32⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S1x256, .f32⟩
  | .local _ .vmem, ⟨10, _⟩ => ⟨S256x128, .bf16⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  slices_S500000x2_S500000x1_0_0 : S500000x2.Slices ![0, 0] S500000x1
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S500000x2_S500000x1_0_1 : S500000x2.Slices ![0, 1] S500000x1
  slices_S384x256_S128x256_0_0 : S384x256.Slices ![0, 0] S128x256
  slices_S384x256_S128x256_128_0 : S384x256.Slices ![128, 0] S128x256
  slices_S384x256_S128x256_256_0 : S384x256.Slices ![256, 0] S128x256
  shapeCasts_S256_S1x256 : S256.ShapeCasts S1x256
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S500000x1_S500000x128_1_0_n_n_0_1_1128_wf : GatherDims.WF S50000x128 S500000x1 S500000x128 [1] [0] [] [0] [] 1 ![1, 128]
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .bf16 = 32 ∨ (Rect.block (s := S500000x128) S5000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .bf16 = 32 ∨ (Rect.block (s := S500000x128) S5000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S500000x128.size a
  hwx0_2 : ∀ i : grid0.Coords, EltTy.bits .f32 = 32 ∨ (Rect.block (s := S500000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .bf16 = 32 ∨ (Rect.block (s := S256x128) S256x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S500000x128.size a
  hwx0_9 : ∀ i : grid0.Coords, EltTy.bits .f32 = 32 ∨ (Rect.block (s := S500000x128) S5000x128.size (cc0_transform_9 i) (hinb0_9 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v28) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x128 : Shape := ⟨2, ![50000, 128]⟩
abbrev S500000x128 : Shape := ⟨2, ![500000, 128]⟩
abbrev S384x256 : Shape := ⟨2, ![384, 256]⟩
abbrev S256 : Shape := ⟨1, ![256]⟩
abbrev S256x128 : Shape := ⟨2, ![256, 128]⟩
abbrev S128 : Shape := ⟨1, ![128]⟩
abbrev S500000x2 : Shape := ⟨2, ![500000, 2]⟩
abbrev S500000x1 : Shape := ⟨2, ![500000, 1]⟩
abbrev S500000 : Shape := ⟨1, ![500000]⟩
abbrev S_ : Shape := ⟨0, ![]⟩
abbrev S500000x384 : Shape := ⟨2, ![500000, 384]⟩
abbrev S500000x256 : Shape := ⟨2, ![500000, 256]⟩
abbrev S1x256 : Shape := ⟨2, ![1, 256]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S500000x128, .f32⟩
  | .hbm, ⟨2, _⟩ => ⟨S384x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S500000x2, .i32⟩
  | .hbm, ⟨7, _⟩ => ⟨S500000x1, .i32⟩
  | .hbm, ⟨8, _⟩ => ⟨S500000, .i32⟩
  | .hbm, ⟨9, _⟩ => ⟨S_, .i32⟩
  | .hbm, ⟨10, _⟩ => ⟨S500000, .i32⟩
  | .hbm, ⟨11, _⟩ => ⟨S500000, .i1⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S500000x1, .i32⟩
  | .hbm, ⟨17, _⟩ => ⟨S500000x128, .f32⟩
  | .hbm, ⟨18, _⟩ => ⟨S500000x1, .i32⟩
  | .hbm, ⟨19, _⟩ => ⟨S500000, .i32⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S500000x1, .i32⟩
  | .hbm, ⟨28, _⟩ => ⟨S500000x128, .f32⟩
  | .hbm, ⟨29, _⟩ => ⟨S500000x384, .f32⟩
  | .hbm, ⟨30, _⟩ => ⟨S500000x256, .f32⟩
  | .hbm, ⟨31, _⟩ => ⟨S1x256, .f32⟩
  | .hbm, ⟨32, _⟩ => ⟨S500000x256, .f32⟩
  | .hbm, ⟨33, _⟩ => ⟨S500000x256, .f32⟩
  | .hbm, ⟨34, _⟩ => ⟨S_, .f32⟩
  | .hbm, ⟨35, _⟩ => ⟨S500000x256, .f32⟩
  | .hbm, ⟨36, _⟩ => ⟨S500000x256, .f32⟩
  | .hbm, ⟨37, _⟩ => ⟨S500000x128, .f32⟩
  | .hbm, ⟨38, _⟩ => ⟨S1x128, .f32⟩
  | .hbm, ⟨39, _⟩ => ⟨S500000x128, .f32⟩
  | .hbm, ⟨40, _⟩ => ⟨S500000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  slices_S500000x2_S500000x1_0_0 : S500000x2.Slices ![0, 0] S500000x1
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S500000x2_S500000x1_0_1 : S500000x2.Slices ![0, 1] S500000x1
  concatenates_S500000x128_S500000x128_S500000x128_S500000x384_d1 : Shape.Concatenates [S500000x128, S500000x128, S500000x128] S500000x384 1
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  gather_S50000x128_S500000x1_S500000x128_1_0_n_n_0_1_1128_wf : GatherDims.WF S50000x128 S500000x1 S500000x128 [1] [0] [] [0] [] 1 ![1, 128]
  dot_S500000x384_S384x256_S500000x256_1_0_0_1_n_n_wf : DotDims.WF S500000x384 S384x256 S500000x256 [1] [0] [0] [1] [] []
  dot_S500000x256_S256x128_S500000x128_1_0_0_1_n_n_wf : DotDims.WF S500000x256 S256x128 S500000x128 [1] [0] [0] [1] [] []

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x384_S384x256_S500000x256_1_0_0_1_n_n : DotDims S500000x384 S384x256 S500000x256 where
  lhsContracting := [1]
  rhsContracting := [0]
  lhsNonContracting := [0]
  rhsNonContracting := [1]
  lhsBatch := []
  rhsBatch := []
  wf := dot_S500000x384_S384x256_S500000x256_1_0_0_1_n_n_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf

class Facts : Prop extends Facts₀ where

variable [Facts]
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.Body.lean ====
/-
  The kernel body's stored value at one entry of the 5000 x 128 output block, at the ideal values.

  The body loads the sender, receiver and attribute blocks (5000 x 128 each), the three 128 x 256 row blocks of W1, the
  bias row b1 (1 x 256), W2 (256 x 128) and the bias row b2 (1 x 128). Changes of float format are the identity; each
  matrix product accumulates into zero, so it is the plain sum over the contracted index; a bias row is broadcast over
  the 5000 rows. Hence entry (p, q) of the stored block is

      sum_{j<256} max( sum_k snd(p,k) W1s(k,j) + sum_k rcv(p,k) W1r(k,j) + sum_k att(p,k) W1e(k,j) + b1(0,j), 0 ) W2(j,q) + b2(0,q).
-/
import proofs.«125340_j14585708937338_2_alg».proof.Proof.Gen.KernelIdeal.Skeleton
import proofs.«125340_j14585708937338_2_alg».proof.Proof.LibMatmulSum
import Idealize.ShloMosaic.Lib.ValueLayout

noncomputable section

namespace Cert.KernelIdeal.Body

open Cert.KernelIdeal Cert.KernelIdeal.Gen Idealize.ShloMosaic Idealize.ShloMosaic.ValueIdx

/-- The first layer's product record is a plain (5000 x 128) by (128 x 256) product. -/
theorem plain_first : Cert.LibMatmulSum.Plain dot_S5000x128_S128x256_S5000x256_1_0_0_1_n_n where
  rank := rfl
  size := rfl
  l0 := fun i q => by
    unfold DotDims.lhsIdx
    rw [dif_neg (show ¬(0 : Fin S5000x128.rank) ∈ dot_S5000x128_S128x256_S5000x256_1_0_0_1_n_n.lhsBatch by decide),
      dif_pos (show (0 : Fin S5000x128.rank) ∈ dot_S5000x128_S128x256_S5000x256_1_0_0_1_n_n.lhsNonContracting by decide)]
    rfl
  l1 := fun i q => dot_S5000x128_S128x256_S5000x256_1_0_0_1_n_n.lhsIdx_val_of_single rfl i q
  r0 := fun i q => dot_S5000x128_S128x256_S5000x256_1_0_0_1_n_n.rhsIdx_val_of_single rfl i q
  r1 := fun i q => by
    unfold DotDims.rhsIdx
    rw [dif_neg (show ¬(1 : Fin S128x256.rank) ∈ dot_S5000x128_S128x256_S5000x256_1_0_0_1_n_n.rhsBatch by decide),
      dif_pos (show (1 : Fin S128x256.rank) ∈ dot_S5000x128_S128x256_S5000x256_1_0_0_1_n_n.rhsNonContracting by decide)]
    rfl

/-- The second layer's product record is a plain (5000 x 256) by (256 x 128) product. -/
theorem plain_second : Cert.LibMatmulSum.Plain dot_S5000x256_S256x128_S5000x128_1_0_0_1_n_n where
  rank := rfl
  size := rfl
  l0 := fun i q => by
    unfold DotDims.lhsIdx
    rw [dif_neg (show ¬(0 : Fin S5000x256.rank) ∈ dot_S5000x256_S256x128_S5000x128_1_0_0_1_n_n.lhsBatch by decide),
      dif_pos (show (0 : Fin S5000x256.rank) ∈ dot_S5000x256_S256x128_S5000x128_1_0_0_1_n_n.lhsNonContracting by decide)]
    rfl
  l1 := fun i q => dot_S5000x256_S256x128_S5000x128_1_0_0_1_n_n.lhsIdx_val_of_single rfl i q
  r0 := fun i q => dot_S5000x256_S256x128_S5000x128_1_0_0_1_n_n.rhsIdx_val_of_single rfl i q
  r1 := fun i q => by
    unfold DotDims.rhsIdx
    rw [dif_neg (show ¬(1 : Fin S256x128.rank) ∈ dot_S5000x256_S256x128_S5000x128_1_0_0_1_n_n.rhsBatch by decide),
      dif_pos (show (1 : Fin S256x128.rank) ∈ dot_S5000x256_S256x128_S5000x128_1_0_0_1_n_n.rhsNonContracting by decide)]
    rfl

/-- The stored block at entry (p, q), from the nine loaded blocks. -/
theorem stored_at (att : Vec Ideal S5000x128 .f32) (snd : Vec Ideal S5000x128 .bf16) (w1s : Vec Ideal S128x256 .bf16)
    (rcv : Vec Ideal S5000x128 .bf16) (w1r w1e : Vec Ideal S128x256 .bf16) (b1 : Vec Ideal S1x256 .f32)
    (w2 : Vec Ideal S256x128 .bf16) (b2 : Vec Ideal S1x128 .f32) (p : Fin 5000) (q : Fin 128) :
    k0_pay1 (F := Ideal) att snd w1s rcv w1r w1e b1 w2 b2 (ix2 p q)
      = (∑ j : Fin 256,
            max ((((∑ k : Fin 128, snd (ix2 p k) * w1s (ix2 k j)) + ∑ k : Fin 128, rcv (ix2 p k) * w1r (ix2 k j))
                  + ∑ k : Fin 128, att (ix2 p k) * w1e (ix2 k j)) + b1 (ix2 (0 : Fin 1) j))
              (Ideal.ofBits .f32 0x00000000#32) * w2 (ix2 j q))
          + b2 (ix2 (0 : Fin 1) q) := by
  unfold k0_pay1
  simp only [addf_apply, maximumf_apply, truncf_apply, broadcast_apply, shapeCast_self,
    Cert.LibMatmulSum.matmul_zero_at plain_first, Cert.LibMatmulSum.matmul_zero_at plain_second,
    broadcastTo_1b_ab_apply]
  rfl

end Cert.KernelIdeal.Body

end
-- ==== Proof.EdgeNet.lean ====
/-
  The value both programs compute, entry by entry, over the extended reals.

  An edge e carries three feature rows of length 128: the sender's node row s(e, ·), the receiver's node row r(e, ·)
  and its own attribute row a(e, ·). The first layer multiplies the row  [s | r | a]  of length 384 by the weight
  matrix W1 (384 x 256), adds the bias b1 and clips below at zero; the second layer multiplies the 256 hidden values
  by W2 (256 x 128) and adds the bias b2:

      hidden(e, j) = sum_{k<128} s(e,k) W1(k,j) + sum_{k<128} r(e,k) W1(128+k,j) + sum_{k<128} a(e,k) W1(256+k,j) + b1(j)
      out(e, o)    = sum_{j<256} max(hidden(e,j), 0) W2(j,o) + b2(o)

  One program forms the three partial products separately (the rows of W1 cut into three blocks of 128), the other
  multiplies the joined row of length 384 by the whole of W1. The two agree because a sum over 384 consecutive terms
  is the sum of its three consecutive thirds, which holds in any commutative additive monoid, so in particular on the
  extended reals with no finiteness assumption.
-/
import Idealize.ShloMosaic.PureOps.Ideal
import Idealize.ShloMosaic.Lib.ValueIdx

noncomputable section

namespace Cert.EdgeNet

open Idealize.ShloMosaic Idealize.ShloMosaic.ValueIdx

/-- A sum over 384 consecutive terms is the sum of its three consecutive thirds. -/
theorem sum_thirds {M : Type} [AddCommMonoid M] (f : Fin 384 → M) :
    ∑ k : Fin 384, f k =
      (∑ k : Fin 128, f ⟨k.val, by omega⟩ + ∑ k : Fin 128, f ⟨128 + k.val, by omega⟩)
        + ∑ k : Fin 128, f ⟨128 + 128 + k.val, by omega⟩ := by
  have h : ∑ k : Fin 384, f k = ∑ k : Fin (128 + 128 + 128), f k := rfl
  rw [h, Fin.sum_univ_add, Fin.sum_univ_add]
  rfl

/-- The hidden value of edge `e` at unit `j`, before clipping: the three partial products and the bias. -/
def hidden (s r a : (⟨2, ![500000, 128]⟩ : Shape).Idx → EReal) (W1 : (⟨2, ![384, 256]⟩ : Shape).Idx → EReal)
    (b1 : (⟨1, ![256]⟩ : Shape).Idx → EReal) (e : Fin 500000) (j : Fin 256) : EReal :=
  ((∑ k : Fin 128, s (ix2 e k) * W1 (ix2 (⟨k.val, by omega⟩ : Fin 384) j)
      + ∑ k : Fin 128, r (ix2 e k) * W1 (ix2 (⟨128 + k.val, by omega⟩ : Fin 384) j))
      + ∑ k : Fin 128, a (ix2 e k) * W1 (ix2 (⟨128 + 128 + k.val, by omega⟩ : Fin 384) j))
    + b1 (ix1 j)

/-- The network's output array: the clipped hidden row times W2, plus the bias. -/
def out (s r a : (⟨2, ![500000, 128]⟩ : Shape).Idx → EReal) (W1 : (⟨2, ![384, 256]⟩ : Shape).Idx → EReal)
    (b1 : (⟨1, ![256]⟩ : Shape).Idx → EReal) (W2 : (⟨2, ![256, 128]⟩ : Shape).Idx → EReal)
    (b2 : (⟨1, ![128]⟩ : Shape).Idx → EReal) : (⟨2, ![500000, 128]⟩ : Shape).Idx → EReal := fun i =>
  (∑ j : Fin 256, max (hidden s r a W1 b1 (i 0) j) (Ideal.ofBits .f32 0x00000000#32) * W2 (ix2 j (i 1)))
    + b2 (ix1 (i 1))

/-- The output at an entry given by its two coordinates. -/
theorem out_apply (s r a : (⟨2, ![500000, 128]⟩ : Shape).Idx → EReal) (W1 : (⟨2, ![384, 256]⟩ : Shape).Idx → EReal)
    (b1 : (⟨1, ![256]⟩ : Shape).Idx → EReal) (W2 : (⟨2, ![256, 128]⟩ : Shape).Idx → EReal)
    (b2 : (⟨1, ![128]⟩ : Shape).Idx → EReal) (e : Fin 500000) (o : Fin 128) :
    out s r a W1 b1 W2 b2 (ix2 e o)
      = (∑ j : Fin 256, max (hidden s r a W1 b1 e j) (Ideal.ofBits .f32 0x00000000#32) * W2 (ix2 j o)) + b2 (ix1 o) := rfl

end Cert.EdgeNet

end
-- ==== Proof.BlockEntry.lean ====
/-
  One entry of one output block is the network's value at the matching entry of the whole output array.

  Stated over arbitrary arrays and arbitrary block contents: if row p of the sender, receiver and attribute blocks is
  row e of the whole arrays, if the three weight blocks are the three consecutive groups of 128 rows of W1, and if the
  bias rows and W2 are read as they are, then entry (p, q) of what the body stores is out(e, q).
-/
import proofs.«125340_j14585708937338_2_alg».proof.Proof.Body
import proofs.«125340_j14585708937338_2_alg».proof.Proof.EdgeNet

noncomputable section

namespace Cert.KernelIdeal.Body

open Cert.KernelIdeal Cert.KernelIdeal.Gen Idealize.ShloMosaic Idealize.ShloMosaic.ValueIdx

theorem block_entry
    (snd rcv att : (⟨2, ![500000, 128]⟩ : Shape).Idx → EReal) (W1 : (⟨2, ![384, 256]⟩ : Shape).Idx → EReal)
    (b1 : (⟨1, ![256]⟩ : Shape).Idx → EReal) (W2 : (⟨2, ![256, 128]⟩ : Shape).Idx → EReal)
    (b2 : (⟨1, ![128]⟩ : Shape).Idx → EReal)
    (batt : Vec Ideal S5000x128 .f32) (bsnd : Vec Ideal S5000x128 .bf16) (w1s : Vec Ideal S128x256 .bf16)
    (brcv : Vec Ideal S5000x128 .bf16) (w1r w1e : Vec Ideal S128x256 .bf16) (b1r : Vec Ideal S1x256 .f32)
    (w2 : Vec Ideal S256x128 .bf16) (b2r : Vec Ideal S1x128 .f32)
    (e : Fin 500000) (p : Fin 5000) (q : Fin 128)
    (hsnd : ∀ k : Fin 128, bsnd (ix2 p k) = snd (ix2 e k))
    (hrcv : ∀ k : Fin 128, brcv (ix2 p k) = rcv (ix2 e k))
    (hatt : ∀ k : Fin 128, batt (ix2 p k) = att (ix2 e k))
    (hw1s : ∀ (k : Fin 128) (j : Fin 256), w1s (ix2 k j) = W1 (ix2 (⟨k.val, by omega⟩ : Fin 384) j))
    (hw1r : ∀ (k : Fin 128) (j : Fin 256), w1r (ix2 k j) = W1 (ix2 (⟨128 + k.val, by omega⟩ : Fin 384) j))
    (hw1e : ∀ (k : Fin 128) (j : Fin 256), w1e (ix2 k j) = W1 (ix2 (⟨128 + 128 + k.val, by omega⟩ : Fin 384) j))
    (hb1 : ∀ j : Fin 256, b1r (ix2 (0 : Fin 1) j) = b1 (ix1 j))
    (hw2 : ∀ (j : Fin 256) (o : Fin 128), w2 (ix2 j o) = W2 (ix2 j o))
    (hb2 : ∀ o : Fin 128, b2r (ix2 (0 : Fin 1) o) = b2 (ix1 o)) :
    k0_pay1 (F := Ideal) batt bsnd w1s brcv w1r w1e b1r w2 b2r (ix2 p q)
      = Cert.EdgeNet.out snd rcv att W1 b1 W2 b2 (ix2 e q) := by
  rw [stored_at, Cert.EdgeNet.out_apply]
  unfold Cert.EdgeNet.hidden
  simp only [hsnd, hrcv, hatt, hw1s, hw1r, hw1e, hb1, hw2, hb2]

end Cert.KernelIdeal.Body

end
-- ==== Proof.KernelValue.lean ====
/-
  The kernel's output array after the run is the network's value of the arrays the kernel launch is given.

  The grid has 100 points. At point t the sender, receiver and attribute windows and the output window all hold rows
  5000 t .. 5000 t + 4999 of their arrays, all 128 columns; the six weight and bias windows hold their whole arrays at
  every point. The host prepares the windows' arrays before the call: the two gathered node-row arrays, the three
  consecutive groups of 128 rows of W1, W2, and the two biases recast as single rows (changes of float format being the
  identity). So entry (p, q) of the block stored at point t is out(5000 t + p, q) (`Body.block_entry`), and since the
  100 row blocks cover all 500000 rows, the output array ends holding `out` everywhere.
-/
import proofs.«125340_j14585708937338_2_alg».proof.Proof.Gen.KernelIdeal.Value
import proofs.«125340_j14585708937338_2_alg».proof.Proof.BlockEntry
import Idealize.ShloMosaic.Lib.StableHlo.Run
import Idealize.ShloMosaic.Lib.ValueLayout

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The arrays the host prepares for the weight and bias windows -/

theorem V_w1s (c : Dev nD) : (V m c main_v20 : S128x256.Idx → EReal)
    = truncf (F := Ideal) .bf16 (extractStridedSlice S128x256 ![0, 0] (m ((c : Thread nD τ).loc main_arg2)) slices_S384x256_S128x256_0_0) bitsLt_bf16_f32 := by
  dsimp only [Gen.V, Gen.hostOps0]
  after_results <;> rfl

theorem V_w1r (c : Dev nD) : (V m c main_v22 : S128x256.Idx → EReal)
    = truncf (F := Ideal) .bf16 (extractStridedSlice S128x256 ![128, 0] (m ((c : Thread nD τ).loc main_arg2)) slices_S384x256_S128x256_128_0) bitsLt_bf16_f32 := by
  dsimp only [Gen.V, Gen.hostOps0]
  after_results <;> rfl

theorem V_w1e (c : Dev nD) : (V m c main_v24 : S128x256.Idx → EReal)
    = truncf (F := Ideal) .bf16 (extractStridedSlice S128x256 ![256, 0] (m ((c : Thread nD τ).loc main_arg2)) slices_S384x256_S128x256_256_0) bitsLt_bf16_f32 := by
  dsimp only [Gen.V, Gen.hostOps0]
  after_results <;> rfl

theorem V_w2 (c : Dev nD) : (V m c main_v25 : S256x128.Idx → EReal)
    = truncf (F := Ideal) .bf16 (m ((c : Thread nD τ).loc main_arg4)) bitsLt_bf16_f32 := by
  dsimp only [Gen.V, Gen.hostOps0]
  after_results <;> rfl

theorem V_b1 (c : Dev nD) : (V m c main_v26 : S1x256.Idx → EReal)
    = shapeCast S1x256 (m ((c : Thread nD τ).loc main_arg3)) shapeCasts_S256_S1x256 := by
  dsimp only [Gen.V, Gen.hostOps0]
  after_results <;> rfl

theorem V_b2 (c : Dev nD) : (V m c main_v27 : S1x128.Idx → EReal)
    = shapeCast S1x128 (m ((c : Thread nD τ).loc main_arg5)) shapeCasts_S128_S1x128 := by
  dsimp only [Gen.V, Gen.hostOps0]
  after_results <;> rfl

/-! ## Those arrays read at an entry -/

theorem w1s_at (c : Dev nD) (k : Fin 128) (j : Fin 256) :
    (V m c main_v20 : S128x256.Idx → EReal) (ix2 k j) = m ((c : Thread nD τ).loc main_arg2) (ix2 (⟨k.val, by omega⟩ : Fin 384) j) := by
  rw [V_w1s, truncf_apply]
  exact slice2_axis0_apply 0 _ _ k j ⟨k.val, by omega⟩ (Nat.zero_add _).symm

theorem w1r_at (c : Dev nD) (k : Fin 128) (j : Fin 256) :
    (V m c main_v22 : S128x256.Idx → EReal) (ix2 k j) = m ((c : Thread nD τ).loc main_arg2) (ix2 (⟨128 + k.val, by omega⟩ : Fin 384) j) := by
  rw [V_w1r, truncf_apply]
  exact slice2_axis0_apply 128 _ _ k j ⟨128 + k.val, by omega⟩ rfl

theorem w1e_at (c : Dev nD) (k : Fin 128) (j : Fin 256) :
    (V m c main_v24 : S128x256.Idx → EReal) (ix2 k j) = m ((c : Thread nD τ).loc main_arg2) (ix2 (⟨128 + 128 + k.val, by omega⟩ : Fin 384) j) := by
  rw [V_w1e, truncf_apply]
  exact slice2_axis0_apply 256 _ _ k j ⟨128 + 128 + k.val, by omega⟩ rfl

theorem w2_at (c : Dev nD) (j : Fin 256) (o : Fin 128) :
    (V m c main_v25 : S256x128.Idx → EReal) (ix2 j o) = m ((c : Thread nD τ).loc main_arg4) (ix2 j o) := by
  rw [V_w2, truncf_apply]

theorem b1_at (c : Dev nD) (j : Fin 256) :
    (V m c main_v26 : S1x256.Idx → EReal) (ix2 (0 : Fin 1) j) = m ((c : Thread nD τ).loc main_arg3) (ix1 j) := by
  rw [V_b1]
  exact shapeCast_a_1a_apply _ _ 0 j

theorem b2_at (c : Dev nD) (o : Fin 128) :
    (V m c main_v27 : S1x128.Idx → EReal) (ix2 (0 : Fin 1) o) = m ((c : Thread nD τ).loc main_arg5) (ix1 o) := by
  rw [V_b2]
  exact shapeCast_a_1a_apply _ _ 0 o

/-! ## The output array as one function -/

/-- The network's value of the two gathered arrays as the call finds them and of the program's arguments. -/
def G (c : Dev nD) : S500000x128.Idx → EReal :=
  Cert.EdgeNet.out (V m c main_v9) (V m c main_v18) (m ((c : Thread nD τ).loc main_arg1))
    (m ((c : Thread nD τ).loc main_arg2)) (m ((c : Thread nD τ).loc main_arg3))
    (m ((c : Thread nD τ).loc main_arg4)) (m ((c : Thread nD τ).loc main_arg5))

theorem hz : (![0, 0] : Fin 2 → Nat) = fun _ => 0 := funext fun a => by fin_cases a <;> rfl

/-- The windows' block indices at each grid point: the row-blocked windows sit at block row t, column block 0; the
    weight and bias windows at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-! ## The row-blocked input windows read at an entry of their block -/

/-- Row p of the sender window's block at point t is row 5000 t + p of the gathered sender array. -/
theorem snd_at (c : Dev nD) (t : Fin cfg0.N) (p : Fin 5000) (k : Fin 128) (e : Fin 500000) (he : e.val = t.val * 5000 + p.val) :
    iblk m c 0 t (ix2 p k) = (V m c main_v9 : S500000x128.Idx → EReal) (ix2 e k) := by
  obtain ⟨h0, h1, -⟩ := block_indices t
  show V m c main_v9 (((cfg0.win 0).blk t).view.emb (ix2 p k)) = V m c main_v9 (ix2 e k)
  refine congrArg _ (funext fun a => Fin.ext ?_)
  match a with
  | ⟨0, _⟩ => show win0_0.index t (0 : Fin 2) * 5000 + 1 * p.val = e.val; omega
  | ⟨1, _⟩ => show win0_0.index t (1 : Fin 2) * 128 + 1 * k.val = k.val; omega

/-- Row p of the receiver window's block at point t is row 5000 t + p of the gathered receiver array. -/
theorem rcv_at (c : Dev nD) (t : Fin cfg0.N) (p : Fin 5000) (k : Fin 128) (e : Fin 500000) (he : e.val = t.val * 5000 + p.val) :
    iblk m c 1 t (ix2 p k) = (V m c main_v18 : S500000x128.Idx → EReal) (ix2 e k) := by
  obtain ⟨-, -, h0, h1, -⟩ := block_indices t
  show V m c main_v18 (((cfg0.win 1).blk t).view.emb (ix2 p k)) = V m c main_v18 (ix2 e k)
  refine congrArg _ (funext fun a => Fin.ext ?_)
  match a with
  | ⟨0, _⟩ => show win0_1.index t (0 : Fin 2) * 5000 + 1 * p.val = e.val; omega
  | ⟨1, _⟩ => show win0_1.index t (1 : Fin 2) * 128 + 1 * k.val = k.val; omega

/-- Row p of the attribute window's block at point t is row 5000 t + p of the edge attributes. -/
theorem att_at (c : Dev nD) (t : Fin cfg0.N) (p : Fin 5000) (k : Fin 128) (e : Fin 500000) (he : e.val = t.val * 5000 + p.val) :
    iblk m c 2 t (ix2 p k) = m ((c : Thread nD τ).loc main_arg1) (ix2 e k) := by
  obtain ⟨-, -, -, -, h0, h1, -⟩ := block_indices t
  rw [← V_main_arg1 m c]
  show V m c main_arg1 (((cfg0.win 2).blk t).view.emb (ix2 p k)) = V m c main_arg1 (ix2 e k)
  refine congrArg _ (funext fun a => Fin.ext ?_)
  match a with
  | ⟨0, _⟩ => show win0_2.index t (0 : Fin 2) * 5000 + 1 * p.val = e.val; omega
  | ⟨1, _⟩ => show win0_2.index t (1 : Fin 2) * 128 + 1 * k.val = k.val; omega

/-! ## The whole-array windows read at an entry of their (only) block -/

theorem blk_w1s (c : Dev nD) (t : Fin cfg0.N) (k : Fin 128) (j : Fin 256) :
    iblk m c 3 t (ix2 k j) = (V m c main_v20 : S128x256.Idx → EReal) (ix2 k j) := by
  obtain ⟨-, -, -, -, -, -, h0, h1, -⟩ := block_indices t
  show V m c main_v20 (((cfg0.win 3).blk t).view.emb (ix2 k j)) = V m c main_v20 (ix2 k j)
  refine congrArg _ (funext fun a => Fin.ext ?_)
  match a with
  | ⟨0, _⟩ => show win0_3.index t (0 : Fin 2) * 128 + 1 * k.val = k.val; omega
  | ⟨1, _⟩ => show win0_3.index t (1 : Fin 2) * 256 + 1 * j.val = j.val; omega

theorem blk_w1r (c : Dev nD) (t : Fin cfg0.N) (k : Fin 128) (j : Fin 256) :
    iblk m c 4 t (ix2 k j) = (V m c main_v22 : S128x256.Idx → EReal) (ix2 k j) := by
  obtain ⟨-, -, -, -, -, -, -, -, h0, h1, -⟩ := block_indices t
  show V m c main_v22 (((cfg0.win 4).blk t).view.emb (ix2 k j)) = V m c main_v22 (ix2 k j)
  refine congrArg _ (funext fun a => Fin.ext ?_)
  match a with
  | ⟨0, _⟩ => show win0_4.index t (0 : Fin 2) * 128 + 1 * k.val = k.val; omega
  | ⟨1, _⟩ => show win0_4.index t (1 : Fin 2) * 256 + 1 * j.val = j.val; omega

theorem blk_w1e (c : Dev nD) (t : Fin cfg0.N) (k : Fin 128) (j : Fin 256) :
    iblk m c 5 t (ix2 k j) = (V m c main_v24 : S128x256.Idx → EReal) (ix2 k j) := by
  obtain ⟨-, -, -, -, -, -, -, -, -, -, h0, h1, -⟩ := block_indices t
  show V m c main_v24 (((cfg0.win 5).blk t).view.emb (ix2 k j)) = V m c main_v24 (ix2 k j)
  refine congrArg _ (funext fun a => Fin.ext ?_)
  match a with
  | ⟨0, _⟩ => show win0_5.index t (0 : Fin 2) * 128 + 1 * k.val = k.val; omega
  | ⟨1, _⟩ => show win0_5.index t (1 : Fin 2) * 256 + 1 * j.val = j.val; omega

theorem blk_b1 (c : Dev nD) (t : Fin cfg0.N) (j : Fin 256) :
    iblk m c 6 t (ix2 (0 : Fin 1) j) = (V m c main_v26 : S1x256.Idx → EReal) (ix2 (0 : Fin 1) j) := by
  obtain ⟨-, -, -, -, -, -, -, -, -, -, -, -, h0, h1, -⟩ := block_indices t
  show V m c main_v26 (((cfg0.win 6).blk t).view.emb (ix2 (0 : Fin 1) j)) = V m c main_v26 (ix2 (0 : Fin 1) j)
  refine congrArg _ (funext fun a => Fin.ext ?_)
  match a with
  | ⟨0, _⟩ => show win0_6.index t (0 : Fin 2) * 1 + 1 * 0 = 0; omega
  | ⟨1, _⟩ => show win0_6.index t (1 : Fin 2) * 256 + 1 * j.val = j.val; omega

theorem blk_w2 (c : Dev nD) (t : Fin cfg0.N) (j : Fin 256) (o : Fin 128) :
    iblk m c 7 t (ix2 j o) = (V m c main_v25 : S256x128.Idx → EReal) (ix2 j o) := by
  obtain ⟨-, -, -, -, -, -, -, -, -, -, -, -, -, -, h0, h1, -⟩ := block_indices t
  show V m c main_v25 (((cfg0.win 7).blk t).view.emb (ix2 j o)) = V m c main_v25 (ix2 j o)
  refine congrArg _ (funext fun a => Fin.ext ?_)
  match a with
  | ⟨0, _⟩ => show win0_7.index t (0 : Fin 2) * 256 + 1 * j.val = j.val; omega
  | ⟨1, _⟩ => show win0_7.index t (1 : Fin 2) * 128 + 1 * o.val = o.val; omega

theorem blk_b2 (c : Dev nD) (t : Fin cfg0.N) (o : Fin 128) :
    iblk m c 8 t (ix2 (0 : Fin 1) o) = (V m c main_v27 : S1x128.Idx → EReal) (ix2 (0 : Fin 1) o) := by
  obtain ⟨-, -, -, -, -, -, -, -, -, -, -, -, -, -, -, -, h0, h1, -⟩ := block_indices t
  show V m c main_v27 (((cfg0.win 8).blk t).view.emb (ix2 (0 : Fin 1) o)) = V m c main_v27 (ix2 (0 : Fin 1) o)
  refine congrArg _ (funext fun a => Fin.ext ?_)
  match a with
  | ⟨0, _⟩ => show win0_8.index t (0 : Fin 2) * 1 + 1 * 0 = 0; omega
  | ⟨1, _⟩ => show win0_8.index t (1 : Fin 2) * 128 + 1 * o.val = o.val; omega

/-! ## What a point writes back, the cover, the run -/

/-- What point t writes back is block t of `G`: rows 5000 t .. 5000 t + 4999 of the network's value. -/
theorem flushed_eq (c : Dev nD) (t : Fin cfg0.N) :
    (dats m 0 c).flushed 9 t = ((cfg0.win 9).blk t).view.read (Elt Ideal) (G m c) := by
  rw [Cert.KernelIdeal.Value.flushed9]
  unfold out0_9
  rw [View.canon_unit_zero hz]
  simp only [View.ld_unit_zero (S := S5000x128) hz, View.ld_unit_zero (S := S128x256) hz,
    View.ld_unit_zero (S := S1x256) hz, View.ld_unit_zero (S := S256x128) hz, View.ld_unit_zero (S := S1x128) hz]
  funext y
  obtain ⟨p, q, rfl⟩ : ∃ (p : Fin 5000) (q : Fin 128), y = ix2 p q := ⟨y 0, y 1, eq_ix2 y⟩
  have hN : grid0.N = 100 := N_0
  have ht : t.val < grid0.N := t.isLt
  have he : t.val * 5000 + p.val < 500000 := by have := p.isLt; omega
  have h9 := (block_indices t).2.2.2.2.2.2.2.2.2.2.2.2.2.2.2.2.2.2
  show k0_pay1 (F := Ideal) (iblk m c 2 t) (iblk m c 0 t) (iblk m c 3 t) (iblk m c 1 t) (iblk m c 4 t) (iblk m c 5 t)
      (iblk m c 6 t) (iblk m c 7 t) (iblk m c 8 t) (ix2 p q) = G m c (((cfg0.win 9).blk t).view.emb (ix2 p q))
  have hemb : ((cfg0.win 9).blk t).view.emb (ix2 p q) = ix2 (⟨t.val * 5000 + p.val, he⟩ : Fin 500000) q :=
    funext fun a => Fin.ext (by
      match a with
      | ⟨0, _⟩ => show win0_9.index t (0 : Fin 2) * 5000 + 1 * p.val = t.val * 5000 + p.val; omega
      | ⟨1, _⟩ => show win0_9.index t (1 : Fin 2) * 128 + 1 * q.val = q.val; omega)
  rw [hemb]
  unfold G
  exact Cert.KernelIdeal.Body.block_entry (V m c main_v9) (V m c main_v18) (m ((c : Thread nD τ).loc main_arg1))
    (m ((c : Thread nD τ).loc main_arg2)) (m ((c : Thread nD τ).loc main_arg3))
    (m ((c : Thread nD τ).loc main_arg4)) (m ((c : Thread nD τ).loc main_arg5))
    (iblk m c 2 t) (iblk m c 0 t) (iblk m c 3 t) (iblk m c 1 t) (iblk m c 4 t) (iblk m c 5 t)
    (iblk m c 6 t) (iblk m c 7 t) (iblk m c 8 t) ⟨t.val * 5000 + p.val, he⟩ p q
    (fun k => snd_at m c t p k _ rfl) (fun k => rcv_at m c t p k _ rfl) (fun k => att_at m c t p k _ rfl)
    (fun k j => (blk_w1s m c t k j).trans (w1s_at m c k j)) (fun k j => (blk_w1r m c t k j).trans (w1r_at m c k j))
    (fun k j => (blk_w1e m c t k j).trans (w1e_at m c k j)) (fun j => (blk_b1 m c t j).trans (b1_at m c j))
    (fun j o => (blk_w2 m c t j o).trans (w2_at m c j o)) (fun o => (blk_b2 m c t o).trans (b2_at m c o))

/-- An index of the output array is in point t's block iff each coordinate is in the block's range on its axis. -/
theorem mem_blk (t : Fin cfg0.N) (i : S500000x128.Idx) :
    i ∈ ((cfg0.win 9).blk t).view.set ↔ ∀ a : Fin 2, win0_9.index t a * S5000x128.size a ≤ (i a).val
      ∧ (i a).val < win0_9.index t a * S5000x128.size a + S5000x128.size a := by
  show i ∈ ((View.whole main_v28).slice (win0_9.rect t)).set ↔ _
  rw [View.set_slice_whole, Rect.mem_set_unit]
  exact Iff.rfl

/-- Every row r of the output array lies in the block of point r / 5000. -/
theorem cover (i : S500000x128.Idx) :
    ∃ t : Fin cfg0.N, (cfg0.win 9).flush t = true ∧ i ∈ ((cfg0.win 9).blk t).view.set := by
  have hi0 : (i 0).val < 500000 := (i 0).isLt
  have hi1 : (i 1).val < 128 := (i 1).isLt
  have hN : grid0.N = 100 := N_0
  have htl : (i 0).val / 5000 < grid0.N := by omega
  have h9 := (block_indices ⟨(i 0).val / 5000, htl⟩).2.2.2.2.2.2.2.2.2.2.2.2.2.2.2.2.2.2
  refine ⟨⟨(i 0).val / 5000, htl⟩, flush0_9 _, ?_⟩
  rw [mem_blk]
  intro a
  match a with
  | ⟨0, _⟩ =>
    show win0_9.index ⟨(i 0).val / 5000, htl⟩ (0 : Fin 2) * 5000 ≤ (i 0).val
      ∧ (i 0).val < win0_9.index ⟨(i 0).val / 5000, htl⟩ (0 : Fin 2) * 5000 + 5000
    have h0 : win0_9.index ⟨(i 0).val / 5000, htl⟩ (0 : Fin 2) = (i 0).val / 5000 := h9.1
    omega
  | ⟨1, _⟩ =>
    show win0_9.index ⟨(i 0).val / 5000, htl⟩ (1 : Fin 2) * 128 ≤ (i 1).val
      ∧ (i 1).val < win0_9.index ⟨(i 0).val / 5000, htl⟩ (1 : Fin 2) * 128 + 128
    have h1 : win0_9.index ⟨(i 0).val / 5000, htl⟩ (1 : Fin 2) = 0 := h9.2
    omega

/-- The output array after the run is `G`. -/
theorem final (c : Dev nD) : (dats m 0 c).arrAt 9 cfg0.N = G m c :=
  (dats m 0 c).arrAt_eq_of_cover 9 (G m c) (fun t _ => flushed_eq m c t) cover

/-- The kernel's run: every weakly fair execution terminates with the result array at `G` and the arguments unchanged. -/
theorem run : θ_run defs (onTc (τ := τ) (main (F := Ideal))) ⟨m, fun _ => 0, ρ⟩ fun r => ∀ c : Dev nD,
      r.2.mem ((c : Thread nD τ).loc main_v28) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelIdeal.KValue

end
-- ==== Proof.LibScatterRows.lean ====
/-
  A scatter-add of ROWS, read at an entry. The operand is [N, C] (or [N]); update row e carries one scalar
  index idx[e, 0], read as a signed integer, and is added to operand row idx[e, 0] when that is a row of the
  operand (0 ≤ idx[e, 0] < N) and dropped otherwise. So entry (n, c) of the result is the operand's entry plus
  the sum over all update rows e of: the update's entry (e, c) if idx[e, 0] = n, else 0. The proof reads the
  dimension numbers once — where update index (e, c) lands — and then collapses the sum over update indices
  to the sum over update rows; nothing depends on the sizes N, C, E.
  Then: three arrays joined along the columns, read at a column of each piece.
-/
import Idealize.ShloMosaic.PureOps.Ideal.Laws
import Idealize.ShloMosaic.Lib.ValueIdx
import Idealize.ShloMosaic.Lib.Pipeline.Value
import Idealize.ShloMosaic.Lib.ValueLayout

noncomputable section
open scoped BigOperators
namespace Cert.Val
open Idealize.ShloMosaic Idealize.ShloMosaic.ValueIdx

/-! ## Rows of a rank-2 operand -/

/-- The dimension numbers of a row scatter: operand [N, C], indices [E, 1] with the index vector on axis 1 (one
    scalar per update row) naming operand axis 0, updates [E, C] whose axis 1 is the window (a whole row). -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N C E w : Nat} (wf : ScatterDims.WF ⟨2, ![N, C]⟩ ⟨2, ![E, 1]⟩ ⟨2, ![E, C]⟩ [1] [0] [0] 1)

/-- On the row axis the window of update (e, c) starts at the index idx[e, 0], read signed. -/
theorem rowDims_start_zero (e : Fin E) (c : Fin C) (idx : IVec ⟨2, ![E, 1]⟩ w) :
    (rowDims N C E wf).start (ix2 e c) idx 0 = (idx (ix2 e (0 : Fin 1))).toInt := by
  unfold ScatterDims.start
  rw [dif_pos (show (0 : Fin 2) ∈ (rowDims N C E wf).scatterDimsToOperandDims from List.mem_singleton.mpr rfl)]
  have hsi : (rowDims N C E wf).siIdx (ix2 e c) ⟨List.idxOf (0 : Fin 2) (rowDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0. -/
theorem rowDims_start_one (e : Fin E) (c : Fin C) (idx : IVec ⟨2, ![E, 1]⟩ w) :
    (rowDims N C E wf).start (ix2 e c) idx 1 = 0 := rfl

/-- The row axis is inserted: no window coordinate there. -/
theorem rowDims_window_zero (e : Fin E) (c : Fin C) :
    (rowDims N C E wf).window (ix2 e c) 0 = 0 := rfl

/-- On the column axis the window coordinate is the update's column. -/
theorem rowDims_window_one (e : Fin E) (c : Fin C) :
    (rowDims N C E wf).window (ix2 e c) 1 = c.val := rfl

/-- WHERE AN UPDATE LANDS: update (e, c) lands at operand entry (n, c') exactly when its row's index is n and
    the columns agree (an index outside [0, N) lands nowhere). -/
theorem rowDims_resultIdx?_eq_some_iff (e : Fin E) (c : Fin C) (n : Fin N) (c' : Fin C) (idx : IVec ⟨2, ![E, 1]⟩ w) :
    (rowDims N C E wf).resultIdx? (ix2 e c) idx = some (ix2 n c') ↔
      ((idx (ix2 e (0 : Fin 1))).toInt = (n.val : Int) ∧ c = c') := by
  have hs0 := rowDims_start_zero wf e c idx
  have hs1 := rowDims_start_one wf e c idx
  have hw0 := rowDims_window_zero wf e c
  have hw1 := rowDims_window_one wf e c
  generalize (idx (ix2 e (0 : Fin 1))).toInt = v at hs0 ⊢
  unfold ScatterDims.resultIdx?
  split
  · next h =>
    have h0 := h 0
    rw [hs0, hw0] at h0
    rw [Option.some.injEq]
    constructor
    · intro hf
      have f0 := congrArg Fin.val (congrFun hf 0)
      have f1 := congrArg Fin.val (congrFun hf 1)
      simp only [hs0, hw0, hs1, hw1] at f0 f1
      refine ⟨?_, Fin.ext ?_⟩
      · change (v + ((0 : Nat) : Int)).toNat = n.val at f0
        omega
      · change (((0 : Int) + (c.val : Int))).toNat = c'.val at f1
        omega
    · rintro ⟨hv, rfl⟩
      funext a
      refine Fin.ext ?_
      match a with
      | ⟨0, _⟩ =>
        show ((rowDims N C E wf).start (ix2 e c) idx 0 + ((rowDims N C E wf).window (ix2 e c) 0 : Int)).toNat = n.val
        rw [hs0, hw0]; omega
      | ⟨1, _⟩ =>
        show ((rowDims N C E wf).start (ix2 e c) idx 1 + ((rowDims N C E wf).window (ix2 e c) 1 : Int)).toNat = c.val
        rw [hs1, hw1]; omega
  · next h =>
    constructor
    · intro hf; exact absurd hf (by simp)
    · rintro ⟨hv, rfl⟩
      exfalso; apply h
      intro a
      match a with
      | ⟨0, _⟩ =>
        show 0 ≤ (rowDims N C E wf).start (ix2 e c) idx 0 + ((rowDims N C E wf).window (ix2 e c) 0 : Int) ∧
          (rowDims N C E wf).start (ix2 e c) idx 0 + ((rowDims N C E wf).window (ix2 e c) 0 : Int) < (N : Int)
        rw [hs0, hw0]; have := n.isLt; omega
      | ⟨1, _⟩ =>
        show 0 ≤ (rowDims N C E wf).start (ix2 e c) idx 1 + ((rowDims N C E wf).window (ix2 e c) 1 : Int) ∧
          (rowDims N C E wf).start (ix2 e c) idx 1 + ((rowDims N C E wf).window (ix2 e c) 1 : Int) < (C : Int)
        rw [hs1, hw1]; have := c.isLt; omega

/-- THE ROW SCATTER-ADD AT AN ENTRY: the operand's entry plus, over the update rows whose index is the entry's
    row, the update's entry in the same column. -/
theorem scatterAdd_rows_apply {φ : FTy} (x : FVec Ideal ⟨2, ![N, C]⟩ φ) (idx : IVec ⟨2, ![E, 1]⟩ w)
    (upd : FVec Ideal ⟨2, ![E, C]⟩ φ) (n : Fin N) (c : Fin C) :
    Host.scatterAdd (F := Ideal) (rowDims N C E wf) x idx upd (ix2 n c) =
      x (ix2 n c) + ∑ e : Fin E, if (idx (ix2 e (0 : Fin 1))).toInt = (n.val : Int) then upd (ix2 e c) else 0 := by
  show x (ix2 n c) + ∑ j ∈ Finset.univ.filter (fun j => (rowDims N C E wf).resultIdx? j idx = some (ix2 n c)), upd j = _
  congr 1
  rw [Finset.sum_filter, sum_idx2]
  refine Finset.sum_congr rfl fun e _ => ?_
  simp only [rowDims_resultIdx?_eq_some_iff]
  by_cases hv : (idx (ix2 e (0 : Fin 1))).toInt = (n.val : Int)
  · simp only [hv, true_and, if_true]
    rw [Finset.sum_ite_eq' Finset.univ c]
    simp
  · simp only [hv, false_and, if_false]
    exact Finset.sum_const_zero

/-! ## The same for a rank-1 operand: one scalar update per index -/

/-- The dimension numbers of a scatter of scalars: operand [N], indices [E, 1], updates [E] (no window axis). -/
abbrev rowDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf1 : ScatterDims.WF ⟨1, ![N]⟩ ⟨2, ![E, 1]⟩ ⟨1, ![E]⟩ [] [0] [0] 1)

/-- The window of update e starts at the index idx[e, 0], read signed. -/
theorem rowDims1_start_zero (e : Fin E) (idx : IVec ⟨2, ![E, 1]⟩ w) :
    (rowDims1 N E wf1).start (ix1 e) idx 0 = (idx (ix2 e (0 : Fin 1))).toInt := by
  unfold ScatterDims.start
  rw [dif_pos (show (0 : Fin 1) ∈ (rowDims1 N E wf1).scatterDimsToOperandDims from List.mem_singleton.mpr rfl)]
  have hsi : (rowDims1 N E wf1).siIdx (ix1 e) ⟨List.idxOf (0 : Fin 1) (rowDims1 N E wf1).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is inserted: no window coordinate. -/
theorem rowDims1_window_zero (e : Fin E) : (rowDims1 N E wf1).window (ix1 e) 0 = 0 := rfl

/-- Update e lands at operand entry n exactly when its index is n. -/
theorem rowDims1_resultIdx?_eq_some_iff (e : Fin E) (n : Fin N) (idx : IVec ⟨2, ![E, 1]⟩ w) :
    (rowDims1 N E wf1).resultIdx? (ix1 e) idx = some (ix1 n) ↔ (idx (ix2 e (0 : Fin 1))).toInt = (n.val : Int) := by
  have hs0 := rowDims1_start_zero wf1 e idx
  have hw0 := rowDims1_window_zero wf1 e
  generalize (idx (ix2 e (0 : Fin 1))).toInt = v at hs0 ⊢
  unfold ScatterDims.resultIdx?
  split
  · next h =>
    have h0 := h 0
    rw [hs0, hw0] at h0
    rw [Option.some.injEq]
    constructor
    · intro hf
      have f0 := congrArg Fin.val (congrFun hf 0)
      simp only [hs0, hw0] at f0
      change (v + ((0 : Nat) : Int)).toNat = n.val at f0
      omega
    · intro hv
      funext a
      refine Fin.ext ?_
      match a with
      | ⟨0, _⟩ =>
        show ((rowDims1 N E wf1).start (ix1 e) idx 0 + ((rowDims1 N E wf1).window (ix1 e) 0 : Int)).toNat = n.val
        rw [hs0, hw0]; omega
  · next h =>
    constructor
    · intro hf; exact absurd hf (by simp)
    · intro hv
      exfalso; apply h
      intro a
      match a with
      | ⟨0, _⟩ =>
        show 0 ≤ (rowDims1 N E wf1).start (ix1 e) idx 0 + ((rowDims1 N E wf1).window (ix1 e) 0 : Int) ∧
          (rowDims1 N E wf1).start (ix1 e) idx 0 + ((rowDims1 N E wf1).window (ix1 e) 0 : Int) < (N : Int)
        rw [hs0, hw0]; have := n.isLt; omega

/-- A rank-1 index set is its coordinate range, so a sum over it is the sum over the coordinate. -/
theorem sum_idx1 {M : Type*} [AddCommMonoid M] {n : Nat} (f : (⟨1, ![n]⟩ : Shape).Idx → M) :
    ∑ i, f i = ∑ a : Fin n, f (ix1 a) := by
  refine (Fintype.sum_equiv (⟨fun i => i 0, fun a => ix1 a, fun i => (eq_ix1 i).symm, fun _ => rfl⟩ :
    (⟨1, ![n]⟩ : Shape).Idx ≃ Fin n) _ _ fun i => ?_)
  exact congrArg f (eq_ix1 i)

/-- THE SCALAR SCATTER-ADD AT AN ENTRY: the operand's entry plus the updates whose index is the entry. -/
theorem scatterAdd_rows1_apply {φ : FTy} (x : FVec Ideal ⟨1, ![N]⟩ φ) (idx : IVec ⟨2, ![E, 1]⟩ w)
    (upd : FVec Ideal ⟨1, ![E]⟩ φ) (n : Fin N) :
    Host.scatterAdd (F := Ideal) (rowDims1 N E wf1) x idx upd (ix1 n) =
      x (ix1 n) + ∑ e : Fin E, if (idx (ix2 e (0 : Fin 1))).toInt = (n.val : Int) then upd (ix1 e) else 0 := by
  show x (ix1 n) + ∑ j ∈ Finset.univ.filter (fun j => (rowDims1 N E wf1).resultIdx? j idx = some (ix1 n)), upd j = _
  congr 1
  rw [Finset.sum_filter, sum_idx1]
  refine Finset.sum_congr rfl fun e _ => ?_
  simp only [rowDims1_resultIdx?_eq_some_iff]

/-! ## Three arrays joined along the columns, read at a column of each -/

section Concat3
variable {α : Type} {R a b c t : Nat}
  (x₁ : (⟨2, ![R, a]⟩ : Shape).Idx → α) (x₂ : (⟨2, ![R, b]⟩ : Shape).Idx → α) (x₃ : (⟨2, ![R, c]⟩ : Shape).Idx → α)
  (h : Shape.Concatenates [⟨2, ![R, a]⟩, ⟨2, ![R, b]⟩, ⟨2, ![R, c]⟩] ⟨2, ![R, t]⟩ 1)

/-- A column of the first piece. -/
theorem concat3_cols_first (r : Fin R) (q : Fin a) (hq : q.val < t) :
    concatenate ⟨2, ![R, t]⟩ 1 [⟨⟨2, ![R, a]⟩, x₁⟩, ⟨⟨2, ![R, b]⟩, x₂⟩, ⟨⟨2, ![R, c]⟩, x₃⟩] h (ix2 r ⟨q.val, hq⟩) = x₁ (ix2 r q) :=
  concatenate_apply_piece 1 [⟨⟨2, ![R, a]⟩, x₁⟩, ⟨⟨2, ![R, b]⟩, x₂⟩, ⟨⟨2, ![R, c]⟩, x₃⟩] h (ix2 r ⟨q.val, hq⟩)
    0 (by simp) ⟨2, ![R, a]⟩ x₁ rfl rfl 0 rfl (ix2 r q)
    (fun ax hax => match ax with
      | ⟨0, _⟩ => rfl
      | ⟨1, _⟩ => absurd rfl hax)
    (by show 0 + q.val = q.val; omega)

/-- A column of the second piece: the first piece's width further on. -/
theorem concat3_cols_second (r : Fin R) (q : Fin b) (hq : a + q.val < t) :
    concatenate ⟨2, ![R, t]⟩ 1 [⟨⟨2, ![R, a]⟩, x₁⟩, ⟨⟨2, ![R, b]⟩, x₂⟩, ⟨⟨2, ![R, c]⟩, x₃⟩] h (ix2 r ⟨a + q.val, hq⟩) = x₂ (ix2 r q) :=
  concatenate_apply_piece 1 [⟨⟨2, ![R, a]⟩, x₁⟩, ⟨⟨2, ![R, b]⟩, x₂⟩, ⟨⟨2, ![R, c]⟩, x₃⟩] h (ix2 r ⟨a + q.val, hq⟩)
    1 (by simp) ⟨2, ![R, b]⟩ x₂ rfl rfl a (by simp) (ix2 r q)
    (fun ax hax => match ax with
      | ⟨0, _⟩ => rfl
      | ⟨1, _⟩ => absurd rfl hax)
    rfl

/-- A column of the third piece: the first two pieces' widths further on. -/
theorem concat3_cols_third (r : Fin R) (q : Fin c) (hq : a + b + q.val < t) :
    concatenate ⟨2, ![R, t]⟩ 1 [⟨⟨2, ![R, a]⟩, x₁⟩, ⟨⟨2, ![R, b]⟩, x₂⟩, ⟨⟨2, ![R, c]⟩, x₃⟩] h (ix2 r ⟨a + b + q.val, hq⟩) = x₃ (ix2 r q) :=
  concatenate_apply_piece 1 [⟨⟨2, ![R, a]⟩, x₁⟩, ⟨⟨2, ![R, b]⟩, x₂⟩, ⟨⟨2, ![R, c]⟩, x₃⟩] h (ix2 r ⟨a + b + q.val, hq⟩)
    2 (by simp) ⟨2, ![R, c]⟩ x₃ rfl rfl (a + b) (by simp) (ix2 r q)
    (fun ax hax => match ax with
      | ⟨0, _⟩ => rfl
      | ⟨1, _⟩ => absurd rfl hax)
    rfl

end Concat3

end Cert.Val
-- ==== Proof.RefValue.lean ====
/-
  The reference program's result is the network's value `EdgeNet.out` of its two gathered node-row arrays, the edge
  attributes, the weights and the biases.

  The reference joins the sender rows, the receiver rows and the attribute rows along the columns into one array of
  rows of length 384 and multiplies it by the whole of W1. Read at an entry the product is a sum over 384 columns; cut
  into its three consecutive thirds, each third reads one piece of the joined row against the matching 128 rows of W1,
  which is the form in which `EdgeNet.hidden` states it. The bias rows are read through their two broadcasts, the
  clipping is the maximum with the zero constant, and the second product is already a sum over the 256 hidden units.
-/
import proofs.«125340_j14585708937338_2_alg».proof.Proof.Gen.ReferenceIdeal.Read
import proofs.«125340_j14585708937338_2_alg».proof.Proof.EdgeNet
import proofs.«125340_j14585708937338_2_alg».proof.Proof.LibScatterRows

noncomputable section

namespace Cert.ReferenceIdeal.RefValue

open Cert.ReferenceIdeal Cert.ReferenceIdeal.Gen Cert.ReferenceIdeal.Read Idealize.ShloMosaic Idealize.ShloMosaic.ValueIdx

variable (x0 : (⟨S50000x128, .f32⟩ : BufTy).Contents (Elt Ideal)) (x1 : (⟨S500000x128, .f32⟩ : BufTy).Contents (Elt Ideal))
  (x2 : (⟨S384x256, .f32⟩ : BufTy).Contents (Elt Ideal)) (x3 : (⟨S256, .f32⟩ : BufTy).Contents (Elt Ideal))
  (x4 : (⟨S256x128, .f32⟩ : BufTy).Contents (Elt Ideal)) (x5 : (⟨S128, .f32⟩ : BufTy).Contents (Elt Ideal))
  (x6 : (⟨S500000x2, .i32⟩ : BufTy).Contents (Elt Ideal))

/-! ## The index maps of the generated stages, at an entry given by its coordinates -/

theorem lidx19 (e : Fin 500000) (j : Fin 256) (k : Fin 384) : lidx_main_v19 (ix2 e j) k = ix2 e k :=
  funext fun a => Fin.ext (by match a with | ⟨0, _⟩ => rfl | ⟨1, _⟩ => rfl)

theorem ridx19 (e : Fin 500000) (j : Fin 256) (k : Fin 384) : ridx_main_v19 (ix2 e j) k = ix2 k j :=
  funext fun a => Fin.ext (by match a with | ⟨0, _⟩ => rfl | ⟨1, _⟩ => rfl)

theorem idx_bias1 (e : Fin 500000) (j : Fin 256) : idx_main_v20 (idx_main_v21 (ix2 e j)) = ix1 j :=
  funext fun a => Fin.ext (by match a with | ⟨0, _⟩ => rfl)

theorem lidx24 (e : Fin 500000) (o : Fin 128) (j : Fin 256) : lidx_main_v24 (ix2 e o) j = ix2 e j :=
  funext fun a => Fin.ext (by match a with | ⟨0, _⟩ => rfl | ⟨1, _⟩ => rfl)

theorem ridx24 (e : Fin 500000) (o : Fin 128) (j : Fin 256) : ridx_main_v24 (ix2 e o) j = ix2 j o :=
  funext fun a => Fin.ext (by match a with | ⟨0, _⟩ => rfl | ⟨1, _⟩ => rfl)

theorem idx_bias2 (e : Fin 500000) (o : Fin 128) : idx_main_v25 (idx_main_v26 (ix2 e o)) = ix1 o :=
  funext fun a => Fin.ext (by match a with | ⟨0, _⟩ => rfl)

/-! ## The joined row, read in each of its thirds -/

/-- Columns 0..127 of the joined row are the sender's row. -/
theorem joined_first (e : Fin 500000) (k : Fin 128) (hk : k.val < 384) :
    val_main_v18 (F := Ideal) x0 x1 x6 (ix2 e (⟨k.val, hk⟩ : Fin 384)) = val_main_v8 (F := Ideal) x0 x6 (ix2 e k) := by
  unfold val_main_v18
  exact Cert.Val.concat3_cols_first _ _ _ _ e k hk

/-- Columns 128..255 of the joined row are the receiver's row. -/
theorem joined_second (e : Fin 500000) (k : Fin 128) (hk : 128 + k.val < 384) :
    val_main_v18 (F := Ideal) x0 x1 x6 (ix2 e (⟨128 + k.val, hk⟩ : Fin 384)) = val_main_v17 (F := Ideal) x0 x6 (ix2 e k) := by
  unfold val_main_v18
  exact Cert.Val.concat3_cols_second _ _ _ _ e k hk

/-- Columns 256..383 of the joined row are the edge's attribute row. -/
theorem joined_third (e : Fin 500000) (k : Fin 128) (hk : 128 + 128 + k.val < 384) :
    val_main_v18 (F := Ideal) x0 x1 x6 (ix2 e (⟨128 + 128 + k.val, hk⟩ : Fin 384)) = x1 (ix2 e k) := by
  unfold val_main_v18
  exact Cert.Val.concat3_cols_third _ _ _ _ e k hk

/-! ## The two layers -/

/-- The first layer before clipping: the product over the joined row of length 384, cut into its thirds, plus the bias. -/
theorem hidden_eq (e : Fin 500000) (j : Fin 256) :
    val_main_v22 (F := Ideal) x0 x1 x2 x3 x6 (ix2 e j)
      = Cert.EdgeNet.hidden (val_main_v8 (F := Ideal) x0 x6) (val_main_v17 (F := Ideal) x0 x6) x1 x2 x3 e j := by
  rw [val_main_v22_apply, val_main_v19_apply, val_main_v21_apply, val_main_v20_apply, idx_bias1, Cert.EdgeNet.sum_thirds]
  simp only [lidx19, ridx19, joined_first, joined_second, joined_third, Ideal.addf_def]
  rfl

/-- The reference's result array is the network's value. -/
theorem result_eq :
    val_main_v27 (F := Ideal) x0 x1 x2 x3 x4 x5 x6
      = Cert.EdgeNet.out (val_main_v8 (F := Ideal) x0 x6) (val_main_v17 (F := Ideal) x0 x6) x1 x2 x3 x4 x5 := by
  funext i
  obtain ⟨e, o, rfl⟩ : ∃ (e : Fin 500000) (o : Fin 128), i = ix2 e o := ⟨i 0, i 1, eq_ix2 i⟩
  rw [Cert.EdgeNet.out_apply, val_main_v27_apply, val_main_v24_apply, val_main_v26_apply, val_main_v25_apply, idx_bias2]
  simp only [lidx24, ridx24, val_main_v23_apply, hidden_eq, val_main_call0_v0_apply, val_main_call0_cst_apply,
    Ideal.addf_def, Ideal.maximumf_def, Ideal.ofBits_def]

end Cert.ReferenceIdeal.RefValue

end
-- ==== Proof.Gathered.lean ====
/-
  The two gathered node-row arrays are the same in both programs.

  Each program takes one column of the edge index array, adds 50000 to the negative entries, and gathers the rows of
  the node array x at the resulting indices, under the same gather dimension numbers. The kernel's host code first
  changes x to a narrower float format, which is the identity at the ideal values. So the arrays the kernel launch finds in
  its sender and receiver windows are the reference's two gathered arrays, term for term.
-/
import proofs.«125340_j14585708937338_2_alg».proof.Proof.Gen.KernelIdeal.Frame
import proofs.«125340_j14585708937338_2_alg».proof.Proof.Gen.ReferenceIdeal.Read
import Idealize.ShloMosaic.Lib.StableHlo.Run

noncomputable section

namespace Cert.KernelIdeal.Gathered

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The sender window's array: the rows of x at column 0 of the edge indices. -/
theorem senders (c : Dev nD) : (V m c main_v9 : S500000x128.Idx → EReal)
    = Cert.ReferenceIdeal.Read.val_main_v8 (F := Ideal) (m ((c : Thread nD τ).loc main_arg0)) (m ((c : Thread nD τ).loc main_arg6)) := by
  dsimp only [Gen.V, Gen.hostOps0]
  after_results <;> rfl

set_option maxHeartbeats 4000000 in
/-- The receiver window's array: the rows of x at column 1 of the edge indices. -/
theorem receivers (c : Dev nD) : (V m c main_v18 : S500000x128.Idx → EReal)
    = Cert.ReferenceIdeal.Read.val_main_v17 (F := Ideal) (m ((c : Thread nD τ).loc main_arg0)) (m ((c : Thread nD τ).loc main_arg6)) := by
  dsimp only [Gen.V, Gen.hostOps0]
  after_results <;> rfl

end Cert.KernelIdeal.Gathered

end
-- ==== Proof.lean ====
/-
  The edge network  out = relu([x[snd] | x[rcv] | attr] W1 + b1) W2 + b2  over 500000 edges: the tiled kernel against the
  plain reference, equal at the ideal values.

  Both programs gather the sender and receiver rows of the node array x by the two columns of the edge index array in the
  same way (Proof/Gathered.lean). The kernel then walks the edges in 100 blocks of 5000 rows; in each block it forms the
  first layer as three separate products against the three consecutive groups of 128 rows of W1, adds the bias, clips at
  zero, multiplies by W2 and adds the second bias (Proof/Body.lean, Proof/BlockEntry.lean); the 100 row blocks cover the
  output array, which therefore ends holding `EdgeNet.out` (Proof/KernelValue.lean). The reference joins the three row
  pieces into one row of length 384 and multiplies by the whole of W1; a sum over 384 consecutive terms is the sum of its
  three thirds, so its result is the same `EdgeNet.out` (Proof/EdgeNet.lean, Proof/RefValue.lean). Only the laws of a
  commutative additive monoid are used on the sums, so the finiteness of the inputs is never needed. The kernel's
  idealization rewrote no operation, so there is nothing to preserve beyond the text itself.
-/
import proofs.«125340_j14585708937338_2_alg».proof.Defs
import proofs.«125340_j14585708937338_2_alg».proof.Proof.Gen.Kernel
import proofs.«125340_j14585708937338_2_alg».proof.Proof.Gen.Kernel.Skeleton
import proofs.«125340_j14585708937338_2_alg».proof.Proof.Gen.Kernel.Launch
import proofs.«125340_j14585708937338_2_alg».proof.Proof.Gen.Kernel.Points
import proofs.«125340_j14585708937338_2_alg».proof.Proof.Gen.Kernel.Frame
import proofs.«125340_j14585708937338_2_alg».proof.Proof.Gen.KernelIdeal
import proofs.«125340_j14585708937338_2_alg».proof.Proof.Gen.KernelIdeal.Skeleton
import proofs.«125340_j14585708937338_2_alg».proof.Proof.Gen.KernelIdeal.Launch
import proofs.«125340_j14585708937338_2_alg».proof.Proof.Gen.KernelIdeal.Points
import proofs.«125340_j14585708937338_2_alg».proof.Proof.Gen.KernelIdeal.Frame
import proofs.«125340_j14585708937338_2_alg».proof.Proof.Gen.ReferenceIdeal
import proofs.«125340_j14585708937338_2_alg».proof.Proof.Gen.Pre_finite_inputs
import proofs.«125340_j14585708937338_2_alg».proof.Proof.Gen.KernelIdeal.Value
import proofs.«125340_j14585708937338_2_alg».proof.Proof.Gen.ReferenceIdeal.Run
import proofs.«125340_j14585708937338_2_alg».proof.Proof.Gen.ReferenceIdeal.Read
import proofs.«125340_j14585708937338_2_alg».proof.Proof.KernelValue
import proofs.«125340_j14585708937338_2_alg».proof.Proof.RefValue
import proofs.«125340_j14585708937338_2_alg».proof.Proof.Gathered
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten when the kernel was idealized. -/
theorem preserves : Cert.preserves_Kernel_KernelIdeal := trivial

/-- From memories agreeing on the arguments both programs end with the result array at `EdgeNet.out` of the same
    gathered rows, attributes, weights and biases. -/
theorem algebraic : Cert.algebraic_KernelIdeal_ReferenceIdeal := by
  intro m ρ m' ρ' _ hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.result_eq,
    (hagree c).1, (hagree c).2.1, (hagree c).2.2.1, (hagree c).2.2.2.1, (hagree c).2.2.2.2.1,
    (hagree c).2.2.2.2.2.1, (hagree c).2.2.2.2.2.2]
  show _ = Cert.KernelIdeal.KValue.G m c
  unfold Cert.KernelIdeal.KValue.G
  rw [Cert.KernelIdeal.Gathered.senders, Cert.KernelIdeal.Gathered.receivers]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
